-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 100
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x128, .f32⟩
  | .hbm, ⟨72, _⟩ => ⟨S850000x1, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S_, .f32⟩
  | .hbm, ⟨82, _⟩ => ⟨S512x128, .f32⟩
  | .hbm, ⟨83, _⟩ => ⟨S50000x1, .i32⟩
  | .hbm, ⟨84, _⟩ => ⟨S512x128, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S512, .f32⟩
  | .hbm, ⟨89, _⟩ => ⟨S50000x1, .i32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S512x1, .f32⟩
  | .hbm, ⟨95, _⟩ => ⟨S512x128, .f32⟩
  | .hbm, ⟨96, _⟩ => ⟨S512x128, .f32⟩
  | .hbm, ⟨97, _⟩ => ⟨S1x128, .f32⟩
  | .hbm, ⟨98, _⟩ => ⟨S1x2, .f32⟩
  | .hbm, ⟨99, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S512x128, .f32⟩
  | .local _ .vmem, ⟨17, _⟩ => ⟨S128x128, .f32⟩
  | .local _ .vmem, ⟨18, _⟩ => ⟨S1x128, .f32⟩
  | .local _ .vmem, ⟨19, _⟩ => ⟨S128x2, .f32⟩
  | .local _ .vmem, ⟨20, _⟩ => ⟨S1x2, .f32⟩
  | .local _ .vmem, ⟨21, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x2.size a ≤ S512x2.size a
  hwx3_5 : ∀ i : grid3.Coords, EltTy.bits .f32 = 32 ∨ (Rect.block (s := S512x2) S512x2.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S512x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S512x128, .f32⟩
  | .hbm, ⟨92, _⟩ => ⟨S50000x1, .i32⟩
  | .hbm, ⟨93, _⟩ => ⟨S512x128, .f32⟩
  | .hbm, ⟨94, _⟩ => ⟨S_, .f32⟩
  | .hbm, ⟨95, _⟩ => ⟨S50000, .f32⟩
  | .hbm, ⟨96, _⟩ => ⟨S_, .f32⟩
  | .hbm, ⟨97, _⟩ => ⟨S512, .f32⟩
  | .hbm, ⟨98, _⟩ => ⟨S50000x1, .i32⟩
  | .hbm, ⟨99, _⟩ => ⟨S512, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S512x1, .f32⟩
  | .hbm, ⟨104, _⟩ => ⟨S512x128, .f32⟩
  | .hbm, ⟨105, _⟩ => ⟨S512x128, .f32⟩
  | .hbm, ⟨106, _⟩ => ⟨S512x128, .f32⟩
  | .hbm, ⟨107, _⟩ => ⟨S1x128, .f32⟩
  | .hbm, ⟨108, _⟩ => ⟨S512x128, .f32⟩
  | .hbm, ⟨109, _⟩ => ⟨S512x128, .f32⟩
  | .hbm, ⟨110, _⟩ => ⟨S_, .f32⟩
  | .hbm, ⟨111, _⟩ => ⟨S512x128, .f32⟩
  | .hbm, ⟨112, _⟩ => ⟨S512x128, .f32⟩
  | .hbm, ⟨113, _⟩ => ⟨S512x2, .f32⟩
  | .hbm, ⟨114, _⟩ => ⟨S1x2, .f32⟩
  | .hbm, ⟨115, _⟩ => ⟨S512x2, .f32⟩
  | .hbm, ⟨116, _⟩ => ⟨S512x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call2_cst : Ref sig .tc := ⟨.hbm, 110, rfl⟩
abbrev main_call2_v0 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KRun.lean ====
/-
  The idealized kernel's run with its result array named.

  @main is four kernel regions among stretches of host operations.  The buffer contents at each boundary are a fold
  from the launch memory: a host stretch applies its operations, a region replaces its windows' arrays by what its
  write-backs leave.  Every weakly fair execution terminates, and at the end every unscoped buffer holds the last
  fold's contents; so the result array `main_v72` holds the last fold read at it, and each argument array holds what
  it was launched with.  This is the frame's statement with one more buffer read off the final state.
-/
import proofs.«171946_j52664888984064_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's
    contents read at `main_v72`, and every argument array ends as launched. -/
theorem run : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v72 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.Block.lean ====
/-
  What the three row-blocked kernel regions share.

  Each of them walks a 50000 x 128 array in ten blocks of 5000 rows.  Two computations occur in their bodies:
  the product of a block's rows with 128 x 128 weights, accumulated into zero — at an entry (r, q) of the block the sum
  over the 128 contracted positions k of a (r, k) w (k, q), a change of float format being the identity on the extended
  reals —, and a bias row added to every row of a block and cut at zero — at (r, q): max (s (r, q) + b (0, q)) 0.
  Beside them, the same two computations on whole arrays, which is what the host program of the reference applies.
-/
import proofs.«171946_j52664888984064_1_alg».proof.Proof.Gen.KernelIdeal.Frame
import proofs.«171946_j52664888984064_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Block

open Cert.KernelIdeal Cert.KernelIdeal.Gen
open Idealize.ShloMosaic Idealize.ShloMosaic.TcCoe Idealize.SL.Sem Idealize.ShloMosaic.ValueIdx
open Idealize.ShloMosaic.Pipeline (Dat)

/-- The kernel's matrix product of a block: 5000 x 128 times 128 x 128, one contracted axis. -/
abbrev D5 := dot_S5000x128_S128x128_S5000x128_1_0_0_1_n_n

theorem lhs0 (j : S5000x128.Idx) (q : D5.contr.Idx) : (D5.lhsIdx j q 0).val = (j 0).val := by
  unfold DotDims.lhsIdx
  rw [dif_neg (show ¬(0 : Fin S5000x128.rank) ∈ D5.lhsBatch by decide), dif_pos (show (0 : Fin S5000x128.rank) ∈ D5.lhsNonContracting by decide)]
  rfl
theorem lhs1 (j : S5000x128.Idx) (q : D5.contr.Idx) : (D5.lhsIdx j q 1).val = (q ⟨0, by decide⟩).val :=
  D5.lhsIdx_val_of_single rfl j q
theorem rhs0 (j : S5000x128.Idx) (q : D5.contr.Idx) : (D5.rhsIdx j q 0).val = (q ⟨0, by decide⟩).val :=
  D5.rhsIdx_val_of_single rfl j q
theorem rhs1 (j : S5000x128.Idx) (q : D5.contr.Idx) : (D5.rhsIdx j q 1).val = (j 1).val := by
  unfold DotDims.rhsIdx
  rw [dif_neg (show ¬(1 : Fin S128x128.rank) ∈ D5.rhsBatch by decide), dif_pos (show (1 : Fin S128x128.rank) ∈ D5.rhsNonContracting by decide)]
  rfl

/-- Position k of row (j 0) of a block. -/
abbrev lrow (j : S5000x128.Idx) (k : Fin 128) : S5000x128.Idx := fun a => match a with
  | ⟨0, _⟩ => ⟨(j 0).val, (j 0).isLt⟩
  | ⟨1, _⟩ => ⟨k.val, k.isLt⟩
/-- Position k of column (j 1) of the weights. -/
abbrev rcol (j : S5000x128.Idx) (k : Fin 128) : S128x128.Idx := fun a => match a with
  | ⟨0, _⟩ => ⟨k.val, k.isLt⟩
  | ⟨1, _⟩ => ⟨(j 1).val, (j 1).isLt⟩

/-- A block's product into the zero accumulator, read at an entry: the sum over the 128 contracted positions. -/
theorem matmul_at (a : FVec Ideal S5000x128 .bf16) (w : FVec Ideal S128x128 .bf16) (j : S5000x128.Idx) :
    matmul D5 none a w (constant (F := Ideal) S5000x128 .f32 0x00000000#32) j = ∑ k : Fin 128, a (lrow j k) * w (rcol j k) := by
  simp only [matmul]
  rw [Ideal.matmul_constant_zero_apply, ← Equiv.sum_comp (ValueIdx.contrEquiv1 D5 128 rfl rfl).symm]
  refine Finset.sum_congr rfl fun k _ => ?_
  have hk := ValueIdx.contrEquiv1_symm_val D5 128 rfl rfl k
  have el : D5.lhsIdx j ((ValueIdx.contrEquiv1 D5 128 rfl rfl).symm k) = lrow j k := funext fun a => Fin.ext (by
    match a with
    | ⟨0, _⟩ => exact lhs0 _ _
    | ⟨1, _⟩ => exact (lhs1 _ _).trans hk)
  have er : D5.rhsIdx j ((ValueIdx.contrEquiv1 D5 128 rfl rfl).symm k) = rcol j k := funext fun a => Fin.ext (by
    match a with
    | ⟨0, _⟩ => exact (rhs0 _ _).trans hk
    | ⟨1, _⟩ => exact rhs1 _ _)
  rw [el, er]

/-- The host's product of the whole arrays (the reference's first projection). -/
abbrev project (x : FVec Ideal S50000x128 .f32) (w : FVec Ideal S128x128 .f32) : FVec Ideal S50000x128 .f32 :=
  Cert.ReferenceIdeal.Read.val_main_v27 (F := Ideal) x w

/-- Bias and rectifier on a whole array: the bias row laid along every row, added, and cut at zero. -/
def biasRelu (s : FVec Ideal S50000x128 .f32) (b : FVec Ideal S1x128 .f32)
    (hb : S1x128.BroadcastsInDim S50000x128 (![0, 1] : Fin 2 → Fin S50000x128.rank))
    (h0 : S_.BroadcastsInDim S50000x128 (![] : Fin 0 → Fin S50000x128.rank)) : FVec Ideal S50000x128 .f32 :=
  maximumf (addf s (broadcastInDim S50000x128 ![0, 1] hb b))
    (broadcastInDim S50000x128 ![] h0 (constant (F := Ideal) S_ .f32 0x00000000#32))

/-- The whole-array function at an entry. -/
theorem biasRelu_apply (s : FVec Ideal S50000x128 .f32) (b : FVec Ideal S1x128 .f32) (hb) (h0) (n : Fin 50000) (q : Fin 128) :
    biasRelu s b hb h0 (ix2 n q) = max (s (ix2 n q) + b (ix2 (0 : Fin 1) q)) (Ideal.ofBits .f32 0x00000000#32) := by
  unfold biasRelu
  rw [maximumf_apply, addf_apply, broadcastInDim_oneRow_apply hb b n q, broadcastInDim_constant]
  rfl

/-- The body's stored value at an entry of a block: the block's entry plus the bias row's, cut at zero. -/
theorem reluBlock_apply (x0 : Vec Ideal S5000x128 .f32) (x1 : Vec Ideal S1x128 .f32) (p : Fin 5000) (q : Fin 128) :
    k2_pay1 (F := Ideal) x0 x1 (ix2 p q) = max (x0 (ix2 p q) + x1 (ix2 (0 : Fin 1) q)) (Ideal.ofBits .f32 0x00000000#32) := by
  unfold k2_pay1
  simp only [shapeCast_self]
  rw [maximumf_apply, addf_apply, broadcastTo_1b_ab_apply]
  rfl

/-- The same at any entry of the array. -/
theorem biasRelu_at (s : FVec Ideal S50000x128 .f32) (b : FVec Ideal S1x128 .f32) (hb) (h0) (i : S50000x128.Idx) :
    biasRelu s b hb h0 i = max (s i + b (ix2 (0 : Fin 1) (i 1 : Fin 128))) (Ideal.ofBits .f32 0x00000000#32) := by
  obtain ⟨n, q, rfl⟩ : ∃ (n : Fin 50000) (q : Fin 128), i = ix2 n q := ⟨i 0, i 1, eq_ix2 i⟩
  exact biasRelu_apply s b hb h0 n q

/-- The same at any entry of a block. -/
theorem reluBlock_at (x0 : Vec Ideal S5000x128 .f32) (x1 : Vec Ideal S1x128 .f32) (j : S5000x128.Idx) :
    k2_pay1 (F := Ideal) x0 x1 j = max (x0 j + x1 (ix2 (0 : Fin 1) (j 1 : Fin 128))) (Ideal.ofBits .f32 0x00000000#32) := by
  obtain ⟨p, q, rfl⟩ : ∃ (p : Fin 5000) (q : Fin 128), j = ix2 p q := ⟨j 0, j 1, eq_ix2 j⟩
  exact reluBlock_apply x0 x1 p q

theorem hz : (![0, 0] : Fin 2 → Nat) = fun _ => 0 := funext fun a => by fin_cases a <;> rfl

end Cert.KernelIdeal.Block

end
-- ==== Proof.Reg0.lean ====
/-
  The first kernel region: the dense projection x W of the node features.

  The region walks the 50000 x 128 array of features in ten blocks of 5000 rows; the 128 x 128 weights are one block,
  the same at every point.  At a block it multiplies the block's rows into the weights, accumulating into zero.  A
  change of float format is the identity on the extended reals, so entry (r, q) of the block written back is the sum
  over k of x (5000 t + r, k) W (k, q): the entry (5000 t + r, q) of the host's product of the whole arrays.  The ten
  blocks tile the array, so the array the region leaves is that product.
-/
import proofs.«171946_j52664888984064_1_alg».proof.Proof.Gen.KernelIdeal.Frame
import proofs.«171946_j52664888984064_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«171946_j52664888984064_1_alg».proof.Proof.Block

set_option maxRecDepth 16384

noncomputable section

namespace Cert.KernelIdeal.Project

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Block

/-- The body's stored value at an entry of a block. -/
theorem pay_at (x0 : Vec Ideal S5000x128 .f32) (x1 : Vec Ideal S128x128 .f32) (j : S5000x128.Idx) :
    k0_pay1 (F := Ideal) x0 x1 j = ∑ k : Fin 128, x0 (lrow j k) * x1 (rcol j k) := by
  unfold k0_pay1
  exact matmul_at _ _ j

/-! ## From the ten blocks to the array -/

/-- The printed index maps over the ten points: the feature block and the output block are the same row block, in
    the one column block; the weights are always block (0, 0). -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

section
variable (V : (c : Dev nD) → (b : Ref sig .tc) → Buf (Elt Ideal) ((c : Thread nD τ).loc b))

/-- What point `t` writes back is block `t` of the product of the whole arrays as the region finds them. -/
theorem flushed_eq (c : Dev nD) (t : Fin cfg0.N) :
    (dat0 V c).flushed 2 t = ((cfg0.win 2).blk t).view.read (Elt Ideal) (project (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4⟩ := idx_facts t
  funext j
  have hj0 : (j 0).val < 5000 := (j 0).isLt
  have hj1 : (j 1).val < 128 := (j 1).isLt
  show k0_pay1 (F := Ideal) (iblk0 V c 0 t) (iblk0 V c 1 t) j
    = project (V c main_arg0) (V c main_arg3) (((cfg0.win 2).blk t).view.emb j)
  refine (pay_at (iblk0 V c 0 t) (iblk0 V c 1 t) j).trans ?_
  refine Eq.trans ?_ (Cert.ReferenceIdeal.Read.val_main_v27_apply (V c main_arg0) (V c main_arg3) (((cfg0.win 2).blk t).view.emb j)).symm
  refine Finset.sum_congr rfl fun k _ => ?_
  have hk : k.val < 128 := k.isLt
  have r0 : iblk0 V c 0 t (lrow j k)
      = V c main_arg0 (Cert.ReferenceIdeal.Read.lidx_main_v27 (((cfg0.win 2).blk t).view.emb j) k) := by
    show V c main_arg0 (((cfg0.win 0).blk t).view.emb (lrow j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have r1 : iblk0 V c 1 t (rcol j k)
      = V c main_arg3 (Cert.ReferenceIdeal.Read.ridx_main_v27 (((cfg0.win 2).blk t).view.emb j) k) := by
    show V c main_arg3 (((cfg0.win 1).blk t).view.emb (rcol j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [r0, r1]

/-- An entry of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Row n lies in the block of the point whose row block is n / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves: the host's product of the two arrays it read. -/
theorem arr (c : Dev nD) : (dat0 V c).arrAt 2 cfg0.N = project (V c main_arg0) (V c main_arg3) :=
  (dat0 V c).arrAt_eq_of_cover 2 _ (fun t _ => flushed_eq V c t) cover

end

end Cert.KernelIdeal.Project

end
-- ==== Proof.Reg1.lean ====
/-
  The second kernel region: bias and rectifier on the first layer's aggregate, then the second dense projection.

  The region walks the 50000 x 128 aggregate in ten blocks of 5000 rows; the bias row and the 128 x 128 weights are one
  block each, the same at every point.  At a block it adds the bias row to every row, cuts at zero, and multiplies the
  rows into the weights, accumulating into zero.  Entry (r, q) of the block written back is therefore the sum over k of
  max (s (5000 t + r, k) + b (0, k)) 0 times W (k, q): the entry (5000 t + r, q) of the host's product of the
  whole rectified array with the weights.  The ten blocks tile the array.
-/
import proofs.«171946_j52664888984064_1_alg».proof.Proof.Gen.KernelIdeal.Frame
import proofs.«171946_j52664888984064_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«171946_j52664888984064_1_alg».proof.Proof.Block

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Block

/-- The body's stored value at an entry of a block: the rectified block's row times the weights' column. -/
theorem pay_at (x0 : Vec Ideal S5000x128 .f32) (x1 : Vec Ideal S1x128 .f32) (x2 : Vec Ideal S128x128 .f32) (j : S5000x128.Idx) :
    k1_pay1 (F := Ideal) x0 x1 x2 j
      = ∑ k : Fin 128, max (x0 (lrow j k) + x1 (ix2 (0 : Fin 1) k)) (Ideal.ofBits .f32 0x00000000#32) * x2 (rcol j k) := by
  have e : k1_pay1 (F := Ideal) x0 x1 x2
      = matmul D5 none (truncf .bf16 (k2_pay1 (F := Ideal) x0 x1) bitsLt_bf16_f32) (truncf .bf16 x2 bitsLt_bf16_f32)
          (constant (F := Ideal) S5000x128 .f32 0x00000000#32) := rfl
  rw [e, matmul_at]
  refine Finset.sum_congr rfl fun k _ => ?_
  rw [truncf_apply, truncf_apply, reluBlock_at]
  rfl

/-- The whole-array function: the rectified array times the weights, as the host's product. -/
abbrev layer2 (s : FVec Ideal S50000x128 .f32) (b : FVec Ideal S1x128 .f32) (w : FVec Ideal S128x128 .f32)
    (hb : S1x128.BroadcastsInDim S50000x128 (![0, 1] : Fin 2 → Fin S50000x128.rank))
    (h0 : S_.BroadcastsInDim S50000x128 (![] : Fin 0 → Fin S50000x128.rank)) : FVec Ideal S50000x128 .f32 :=
  project (biasRelu s b hb h0) w

/-! ## From the ten blocks to the array -/

/-- The printed index maps over the ten points: the aggregate's block and the output block are the same row block, in
    the one column block; the bias row and the weights are always block (0, 0). -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

section
variable (V : (c : Dev nD) → (b : Ref sig .tc) → Buf (Elt Ideal) ((c : Thread nD τ).loc b))

/-- What point `t` writes back is block `t` of the whole-array function of the arrays as the region finds them. -/
theorem flushed_eq (c : Dev nD) (t : Fin cfg1.N) (hb) (h0) :
    (dat1 V c).flushed 3 t
      = ((cfg1.win 3).blk t).view.read (Elt Ideal) (layer2 (V c main_v40) (V c main_v41) (V c main_arg5) hb h0) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6⟩ := idx_facts t
  funext j
  have hj0 : (j 0).val < 5000 := (j 0).isLt
  have hj1 : (j 1).val < 128 := (j 1).isLt
  show k1_pay1 (F := Ideal) (iblk1 V c 0 t) (iblk1 V c 1 t) (iblk1 V c 2 t) j
    = layer2 (V c main_v40) (V c main_v41) (V c main_arg5) hb h0 (((cfg1.win 3).blk t).view.emb j)
  refine (pay_at (iblk1 V c 0 t) (iblk1 V c 1 t) (iblk1 V c 2 t) j).trans ?_
  refine Eq.trans ?_ (Cert.ReferenceIdeal.Read.val_main_v27_apply (biasRelu (V c main_v40) (V c main_v41) hb h0) (V c main_arg5)
    (((cfg1.win 3).blk t).view.emb j)).symm
  refine Finset.sum_congr rfl fun k _ => ?_
  have hk : k.val < 128 := k.isLt
  rw [biasRelu_at (V c main_v40) (V c main_v41) hb h0 (Cert.ReferenceIdeal.Read.lidx_main_v27 (((cfg1.win 3).blk t).view.emb j) k)]
  have r0 : iblk1 V c 0 t (lrow j k)
      = V c main_v40 (Cert.ReferenceIdeal.Read.lidx_main_v27 (((cfg1.win 3).blk t).view.emb j) k) := by
    show V c main_v40 (((cfg1.win 0).blk t).view.emb (lrow j k)) = _
    refine congrArg (V c main_v40) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have r1 : iblk1 V c 1 t (ix2 (0 : Fin 1) k)
      = V c main_v41 (ix2 (0 : Fin 1) ((Cert.ReferenceIdeal.Read.lidx_main_v27 (((cfg1.win 3).blk t).view.emb j) k) 1 : Fin 128)) := by
    show V c main_v41 (((cfg1.win 1).blk t).view.emb (ix2 (0 : Fin 1) k)) = _
    refine congrArg (V c main_v41) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have r2 : iblk1 V c 2 t (rcol j k)
      = V c main_arg5 (Cert.ReferenceIdeal.Read.ridx_main_v27 (((cfg1.win 3).blk t).view.emb j) k) := by
    show V c main_arg5 (((cfg1.win 2).blk t).view.emb (rcol j k)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [r0, r1, r2]

/-- An entry of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v42).slice (win1_3.rect t)).set ↔ _
  rw [View.set_slice_whole, Rect.mem_set_unit]
  exact Iff.rfl

/-- Row n lies in the block of the point whose row block is n / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array the region leaves: the whole-array function of the three arrays it read. -/
theorem arr (c : Dev nD) (hb) (h0) :
    (dat1 V c).arrAt 3 cfg1.N = layer2 (V c main_v40) (V c main_v41) (V c main_arg5) hb h0 :=
  (dat1 V c).arrAt_eq_of_cover 3 _ (fun t _ => flushed_eq V c t hb h0) cover

end

end Cert.KernelIdeal.Layer2

end
-- ==== Proof.Reg2.lean ====
/-
  The third kernel region: bias and rectifier on the aggregated features.

  The region walks the 50000 x 128 array in ten blocks of 5000 rows.  At each block it adds the one bias row to every
  row of the block and takes the maximum with zero.  Row r of block t is row 5000 t + r of the array, and the bias row
  is the same at every block, so each block written back is the matching block of ONE whole-array function:
  entry (n, q) of the result is max (s (n, q) + b (0, q)) 0.  The ten blocks tile the array, so the array the region
  leaves is that function.
-/
import proofs.«171946_j52664888984064_1_alg».proof.Proof.Gen.KernelIdeal.Frame
import proofs.«171946_j52664888984064_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«171946_j52664888984064_1_alg».proof.Proof.Block

set_option maxRecDepth 16384

noncomputable section

namespace Cert.KernelIdeal.BiasRelu

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Block

/-! ## From the ten blocks to the array -/

/-- The printed index maps over the ten points: the input block and the output block are the same row block, in the
    one column block; the bias row is always block (0, 0). -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

section
variable (V : (c : Dev nD) → (b : Ref sig .tc) → Buf (Elt Ideal) ((c : Thread nD τ).loc b))

/-- What point `t` writes back is block `t` of the whole-array function of the arrays as the region finds them. -/
theorem flushed_eq (c : Dev nD) (t : Fin cfg2.N) (hb) (h0) :
    (dat2 V c).flushed 2 t
      = ((cfg2.win 2).blk t).view.read (Elt Ideal) (biasRelu (V c main_v55) (V c main_v56) hb h0) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4⟩ := idx_facts t
  funext j
  have hj0 : (j 0).val < 5000 := (j 0).isLt
  have hj1 : (j 1).val < 128 := (j 1).isLt
  show k2_pay1 (F := Ideal) (iblk2 V c 0 t) (iblk2 V c 1 t) j
    = biasRelu (V c main_v55) (V c main_v56) hb h0 (((cfg2.win 2).blk t).view.emb j)
  refine (reluBlock_at (iblk2 V c 0 t) (iblk2 V c 1 t) j).trans ?_
  refine Eq.trans ?_ (biasRelu_at (V c main_v55) (V c main_v56) hb h0 (((cfg2.win 2).blk t).view.emb j)).symm
  have r0 : iblk2 V c 0 t j = V c main_v55 (((cfg2.win 2).blk t).view.emb j) := by
    show V c main_v55 (((cfg2.win 0).blk t).view.emb j) = _
    refine congrArg (V c main_v55) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have r1 : iblk2 V c 1 t (ix2 (0 : Fin 1) (j 1 : Fin 128))
      = V c main_v56 (ix2 (0 : Fin 1) ((((cfg2.win 2).blk t).view.emb j) 1 : Fin 128)) := by
    show V c main_v56 (((cfg2.win 1).blk t).view.emb (ix2 (0 : Fin 1) (j 1 : Fin 128))) = _
    refine congrArg (V c main_v56) (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega
  rw [r0, r1]

/-- An entry of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v57).slice (win2_2.rect t)).set ↔ _
  rw [View.set_slice_whole, Rect.mem_set_unit]
  exact Iff.rfl

/-- Row n lies in the block of the point whose row block is n / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array the region leaves: the whole-array function of the two arrays it read. -/
theorem arr (c : Dev nD) (hb) (h0) :
    (dat2 V c).arrAt 2 cfg2.N = biasRelu (V c main_v55) (V c main_v56) hb h0 :=
  (dat2 V c).arrAt_eq_of_cover 2 _ (fun t _ => flushed_eq V c t hb h0) cover

end

end Cert.KernelIdeal.BiasRelu

end
-- ==== Proof.LibRows.lean ====
/-
  A vector and the one-row matrix of it, in the kernel's spelling and in the host's.

  A kernel receives a bias vector as a one-row matrix — a shape cast of the vector — and lays that row along every row of
  a block with a vector broadcast; the host program broadcasts the vector along axis 1 into one row, and that row along
  both axes into the full matrix.  Entry (u, q) of the one-row matrix is entry q of the vector either way, and entry
  (p, q) of the full matrix is entry (0, q) of the row either way; so the two spellings are the same arrays.
-/
import Idealize.ShloMosaic.Lib.Pipeline.Value
import Idealize.ShloMosaic.Lib.ValueIdx
import Idealize.ShloMosaic.Lib.ValueLayout
import Idealize.ShloMosaic.Lib.KernelVsHost

namespace Idealize.ShloMosaic.LibRows

open Idealize.ShloMosaic Idealize.ShloMosaic.ValueIdx

variable {α : Type}

/-- A vector of n entries cast to the one-row matrix [1, n] is the host's broadcast of it along axis 1 of [1, n]. -/
theorem rowCast_eq {n : Nat} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, q, rfl⟩ : ∃ (u : Fin 1) (q : Fin n), i = ix2 u q := ⟨i 0, i 1, eq_ix2 i⟩
  rw [shapeCast_a_1a_apply]
  refine (broadcastInDim_apply ![1] hd x (ix2 u q) (ix1 q) ?_).symm
  intro a
  match a with
  | ⟨0, _⟩ =>
    show q.val = if n = 1 then 0 else q.val
    split
    · have := q.isLt; omega
    · rfl

/-- A one-row matrix [1, n] laid along each of m rows: the kernel's vector broadcast to [m, n] is the host's broadcast
    of it along both axes. -/
theorem rowBroadcast_eq {m n : Nat} (y : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastTo_1b_ab_apply, broadcastInDim_oneRow_apply]

end Idealize.ShloMosaic.LibRows
-- ==== Proof.Reg3.lean ====
/-
  The fourth kernel region: the two dense layers on the pooled graph features.

  One grid point; every window is its whole array.  The body multiplies the 512 x 128 pooled features into the first
  weights (accumulating into zero), adds the first bias row to every row, cuts at zero, multiplies into the 128 x 2
  second weights (again into zero) and adds the second bias row.  On the extended reals a change of float format is the
  identity and a product accumulated into zero is the host's product, which has no accumulator; a row broadcast down
  the rows and a splat of zero are the host's broadcasts of the same values.  So the body's stored array is the host's
  composition of the same operations on the whole arrays, and the one block it writes back is the whole result array.
-/
import proofs.«171946_j52664888984064_1_alg».proof.Proof.Gen.KernelIdeal.Frame
import proofs.«171946_j52664888984064_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«171946_j52664888984064_1_alg».proof.Proof.Block
import proofs.«171946_j52664888984064_1_alg».proof.Proof.LibRows

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Block Idealize.ShloMosaic.LibRows

/-- The two dense layers on whole arrays, as the host applies them: product, bias row, cut at zero, product, bias row.
    The dimension records are the reference program's. -/
def mlp (g : FVec Ideal S512x128 .f32) (w1 : FVec Ideal S128x128 .f32) (b1 : FVec Ideal S1x128 .f32)
    (w2 : FVec Ideal S128x2 .f32) (b2 : FVec Ideal S1x2 .f32)
    (h1 : S1x128.BroadcastsInDim S512x128 (![0, 1] : Fin 2 → Fin S512x128.rank))
    (h0 : S_.BroadcastsInDim S512x128 (![] : Fin 0 → Fin S512x128.rank))
    (h2 : S1x2.BroadcastsInDim S512x2 (![0, 1] : Fin 2 → Fin S512x2.rank)) : FVec Ideal S512x2 .f32 :=
  addf (Host.dotGeneral Cert.ReferenceIdeal.dot_S512x128_S128x2_S512x2_1_0_0_1_n_n none
      (maximumf (addf (Host.dotGeneral Cert.ReferenceIdeal.dot_S512x128_S128x128_S512x128_1_0_0_1_n_n none g w1)
          (broadcastInDim S512x128 ![0, 1] h1 b1))
        (broadcastInDim S512x128 ![] h0 (constant (F := Ideal) S_ .f32 0x00000000#32))) w2)
    (broadcastInDim S512x2 ![0, 1] h2 b2)

/-- The body's stored array is the host's composition on the arrays it loaded. -/
theorem pay_eq (x0 : Vec Ideal S512x128 .f32) (x1 : Vec Ideal S128x128 .f32) (x2 : Vec Ideal S1x128 .f32)
    (x3 : Vec Ideal S128x2 .f32) (x4 : Vec Ideal S1x2 .f32) (h1) (h0) (h2) :
    k3_pay1 (F := Ideal) x0 x1 x2 x3 x4 = mlp x0 x1 x2 x3 x4 h1 h0 h2 := by
  unfold k3_pay1 mlp
  simp only [shapeCast_self]
  rw [matmul_zero_eq_dotGeneral, matmul_zero_eq_dotGeneral, rowBroadcast_eq x2 _ h1, rowBroadcast_eq x4 _ h2,
    broadcastInDim_constant]
  rfl

/-! ## From the one block to the array -/

/-- The printed index maps at the one point: every window's block is block (0, 0). -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem idx_onto : ∃ t : Fin cfg3.N, win3_5.index t = ![0, 0] :=
  (by decide +kernel : ∃ t : Fin grid3.N, win3_5.index t = ![0, 0])

section
variable (V : (c : Dev nD) → (b : Ref sig .tc) → Buf (Elt Ideal) ((c : Thread nD τ).loc b))

/-- Each input window's one block is its whole array. -/
theorem blk0 (c : Dev nD) (t : Fin cfg3.N) : iblk3 V c 0 t = V c main_v69 := by
  obtain ⟨e00, e01, -⟩ := idx_facts t
  funext y
  show V c main_v69 (((cfg3.win 0).blk t).view.emb y) = V c main_v69 y
  refine congrArg (V c main_v69) (funext fun a => Fin.ext ?_)
  match a with
  | ⟨0, _⟩ => show win3_0.index t (0 : Fin 2) * 512 + 1 * (y 0).val = (y 0).val; omega
  | ⟨1, _⟩ => show win3_0.index t (1 : Fin 2) * 128 + 1 * (y 1).val = (y 1).val; omega
theorem blk1 (c : Dev nD) (t : Fin cfg3.N) : iblk3 V c 1 t = V c main_arg7 := by
  obtain ⟨-, -, e10, e11, -⟩ := idx_facts t
  funext y
  show V c main_arg7 (((cfg3.win 1).blk t).view.emb y) = V c main_arg7 y
  refine congrArg (V c main_arg7) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega
theorem blk2 (c : Dev nD) (t : Fin cfg3.N) : iblk3 V c 2 t = V c main_v70 := by
  obtain ⟨-, -, -, -, e20, e21, -⟩ := idx_facts t
  funext y
  show V c main_v70 (((cfg3.win 2).blk t).view.emb y) = V c main_v70 y
  refine congrArg (V c main_v70) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem blk3 (c : Dev nD) (t : Fin cfg3.N) : iblk3 V c 3 t = V c main_arg9 := by
  obtain ⟨-, -, -, -, -, -, e30, e31, -⟩ := idx_facts t
  funext y
  show V c main_arg9 (((cfg3.win 3).blk t).view.emb y) = V c main_arg9 y
  refine congrArg (V c main_arg9) (funext fun a => Fin.ext ?_)
  match a with
  | ⟨0, _⟩ => show win3_3.index t (0 : Fin 2) * 128 + 1 * (y 0).val = (y 0).val; omega
  | ⟨1, _⟩ => show win3_3.index t (1 : Fin 2) * 2 + 1 * (y 1).val = (y 1).val; omega
theorem blk4 (c : Dev nD) (t : Fin cfg3.N) : iblk3 V c 4 t = V c main_v71 := by
  obtain ⟨-, -, -, -, -, -, -, -, e40, e41, -⟩ := idx_facts t
  funext y
  show V c main_v71 (((cfg3.win 4).blk t).view.emb y) = V c main_v71 y
  refine congrArg (V c main_v71) (funext fun a => Fin.ext ?_)
  match a with
  | ⟨0, _⟩ => show win3_4.index t (0 : Fin 2) * 1 + 1 * (y 0).val = (y 0).val; omega
  | ⟨1, _⟩ => show win3_4.index t (1 : Fin 2) * 2 + 1 * (y 1).val = (y 1).val; omega

/-- What the one point writes back is the (one) block of the whole-array function of the arrays as the region finds them. -/
theorem flushed_eq (c : Dev nD) (t : Fin cfg3.N) (h1) (h0) (h2) :
    (dat3 V c).flushed 5 t = ((cfg3.win 5).blk t).view.read (Elt Ideal)
      (mlp (V c main_v69) (V c main_arg7) (V c main_v70) (V c main_arg9) (V c main_v71) h1 h0 h2) := by
  show (cfg3.win 5).cut (grid3.coords t) ((dat3 V c).after 5 t) = _
  rw [after3_5]
  unfold out3_5
  rw [View.canon_unit_zero hz]
  simp only [View.ld_unit_zero (S := S512x128) hz, View.ld_unit_zero (S := S128x128) hz, View.ld_unit_zero (S := S1x128) hz,
    View.ld_unit_zero (S := S128x2) hz, View.ld_unit_zero (S := S1x2) hz]
  rw [pay_eq (iblk3 V c 0 t) (iblk3 V c 1 t) (iblk3 V c 2 t) (iblk3 V c 3 t) (iblk3 V c 4 t) h1 h0 h2,
    blk0 V c t, blk1 V c t, blk2 V c t, blk3 V c t, blk4 V c t]
  obtain ⟨-, -, -, -, -, -, -, -, -, -, e50, e51⟩ := idx_facts t
  funext j
  show mlp (V c main_v69) (V c main_arg7) (V c main_v70) (V c main_arg9) (V c main_v71) h1 h0 h2 j
    = mlp (V c main_v69) (V c main_arg7) (V c main_v70) (V c main_arg9) (V c main_v71) h1 h0 h2 (((cfg3.win 5).blk t).view.emb j)
  refine congrArg _ (funext fun a => Fin.ext ?_)
  match a with
  | ⟨0, _⟩ => show (j 0).val = win3_5.index t (0 : Fin 2) * 512 + 1 * (j 0).val; omega
  | ⟨1, _⟩ => show (j 1).val = win3_5.index t (1 : Fin 2) * 2 + 1 * (j 1).val; omega

/-- An entry of the array is in point `t`'s block iff each coordinate is in the block's range on its axis. -/
theorem mem_blk (t : Fin cfg3.N) (i : S512x2.Idx) :
    i ∈ ((cfg3.win 5).blk t).view.set ↔ ∀ a : Fin 2, win3_5.index t a * S512x2.size a ≤ (i a).val
      ∧ (i a).val < win3_5.index t a * S512x2.size a + S512x2.size a := by
  show i ∈ ((View.whole main_v72).slice (win3_5.rect t)).set ↔ _
  rw [View.set_slice_whole, Rect.mem_set_unit]
  exact Iff.rfl

/-- The one block is the whole array. -/
theorem cover (i : S512x2.Idx) :
    ∃ t : Fin cfg3.N, (cfg3.win 5).flush t = true ∧ i ∈ ((cfg3.win 5).blk t).view.set := by
  have hi0 : (i 0).val < 512 := (i 0).isLt
  have hi1 : (i 1).val < 2 := (i 1).isLt
  obtain ⟨t, ht⟩ := idx_onto
  have q0 : win3_5.index t (0 : Fin 2) = 0 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 512 ≤ (i 0).val ∧ (i 0).val < win3_5.index t (0 : Fin 2) * 512 + 512; omega
  | ⟨1, _⟩ => show win3_5.index t (1 : Fin 2) * 2 ≤ (i 1).val ∧ (i 1).val < win3_5.index t (1 : Fin 2) * 2 + 2; omega

/-- The array the region leaves: the host's two dense layers on the five arrays it read. -/
theorem arr (c : Dev nD) (h1) (h0) (h2) :
    (dat3 V c).arrAt 5 cfg3.N
      = mlp (V c main_v69) (V c main_arg7) (V c main_v70) (V c main_arg9) (V c main_v71) h1 h0 h2 :=
  (dat3 V c).arrAt_eq_of_cover 5 _ (fun t _ => flushed_eq V c t h1 h0 h2) cover

end

end Cert.KernelIdeal.Head

end
-- ==== Proof.Chain.lean ====
/-
  The idealized kernel's buffers, boundary by boundary, as functions of the argument arrays.

  @main alternates stretches of host operations with four kernel regions.  The contents at each boundary are a fold
  from the launch memory.  Here every buffer a later stage reads is walked back through the fold: a host stretch
  applies its operations to what it found (the edge lists with their self loops, the symmetric normalisation, a
  gather of projected rows scaled by it and scatter-added to the destination nodes; the pooling sums, counts and
  quotient), a region leaves in its output array the whole-array function of the arrays it read, and a buffer that
  neither writes keeps its contents.  Each value met is the stage function, of the argument arrays, that the reference
  program computes for the corresponding buffer; the last is the result.
-/
import proofs.«171946_j52664888984064_1_alg».proof.Proof.Reg0
import proofs.«171946_j52664888984064_1_alg».proof.Proof.Reg1
import proofs.«171946_j52664888984064_1_alg».proof.Proof.Reg2
import proofs.«171946_j52664888984064_1_alg».proof.Proof.Reg3
import proofs.«171946_j52664888984064_1_alg».proof.Proof.LibRows

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.KernelIdeal.Block Idealize.ShloMosaic.LibRows

variable (m : (ℓ : Loc nD τ sig) → Buf (Elt Ideal) ℓ) (ρ : Dev nD → PrngReg) (c : Dev nD)

/-! ## After the first host stretch (the edge lists and the normalisation) -/

theorem w1_arg0 : W1 m ρ c (Proc.devRef .tc main_arg0) = (m ((c : Thread nD τ).loc main_arg0)) := by
  show after hostOps0 (W0 m ρ c) (Proc.devRef .tc main_arg0) = _
  after_results_simp <;> rfl
theorem w1_arg2 : W1 m ρ c (Proc.devRef .tc main_arg2) = (m ((c : Thread nD τ).loc main_arg2)) := by
  show after hostOps0 (W0 m ρ c) (Proc.devRef .tc main_arg2) = _
  after_results_simp <;> rfl
theorem w1_arg3 : W1 m ρ c (Proc.devRef .tc main_arg3) = (m ((c : Thread nD τ).loc main_arg3)) := by
  show after hostOps0 (W0 m ρ c) (Proc.devRef .tc main_arg3) = _
  after_results_simp <;> rfl
theorem w1_arg4 : W1 m ρ c (Proc.devRef .tc main_arg4) = (m ((c : Thread nD τ).loc main_arg4)) := by
  show after hostOps0 (W0 m ρ c) (Proc.devRef .tc main_arg4) = _
  after_results_simp <;> rfl
theorem w1_arg5 : W1 m ρ c (Proc.devRef .tc main_arg5) = (m ((c : Thread nD τ).loc main_arg5)) := by
  show after hostOps0 (W0 m ρ c) (Proc.devRef .tc main_arg5) = _
  after_results_simp <;> rfl
theorem w1_arg6 : W1 m ρ c (Proc.devRef .tc main_arg6) = (m ((c : Thread nD τ).loc main_arg6)) := by
  show after hostOps0 (W0 m ρ c) (Proc.devRef .tc main_arg6) = _
  after_results_simp <;> rfl
theorem w1_arg7 : W1 m ρ c (Proc.devRef .tc main_arg7) = (m ((c : Thread nD τ).loc main_arg7)) := by
  show after hostOps0 (W0 m ρ c) (Proc.devRef .tc main_arg7) = _
  after_results_simp <;> rfl
theorem w1_arg8 : W1 m ρ c (Proc.devRef .tc main_arg8) = (m ((c : Thread nD τ).loc main_arg8)) := by
  show after hostOps0 (W0 m ρ c) (Proc.devRef .tc main_arg8) = _
  after_results_simp <;> rfl
theorem w1_arg9 : W1 m ρ c (Proc.devRef .tc main_arg9) = (m ((c : Thread nD τ).loc main_arg9)) := by
  show after hostOps0 (W0 m ρ c) (Proc.devRef .tc main_arg9) = _
  after_results_simp <;> rfl
theorem w1_arg10 : W1 m ρ c (Proc.devRef .tc main_arg10) = (m ((c : Thread nD τ).loc main_arg10)) := by
  show after hostOps0 (W0 m ρ c) (Proc.devRef .tc main_arg10) = _
  after_results_simp <;> rfl
/-- The source nodes: the first row of the edge list, then every node once (the self loops). -/
theorem w1_v3 : W1 m ρ c (Proc.devRef .tc main_v3) = Cert.ReferenceIdeal.Read.val_main_v3 (F := Ideal) (m ((c : Thread nD τ).loc main_arg1)) := by
  show after hostOps0 (W0 m ρ c) (Proc.devRef .tc main_v3) = _
  after_results_simp <;> rfl
/-- The destination nodes: the second row of the edge list, then every node once. -/
theorem w1_v6 : W1 m ρ c (Proc.devRef .tc main_v6) = Cert.ReferenceIdeal.Read.val_main_v6 (F := Ideal) (m ((c : Thread nD τ).loc main_arg1)) := by
  show after hostOps0 (W0 m ρ c) (Proc.devRef .tc main_v6) = _
  after_results_simp <;> rfl
/-- The edge weights: the inverse square roots of the two end nodes' degrees, multiplied. -/
theorem w1_v26 : W1 m ρ c (Proc.devRef .tc main_v26) = Cert.ReferenceIdeal.Read.val_main_v26 (F := Ideal) (m ((c : Thread nD τ).loc main_arg1)) := by
  show after hostOps0 (W0 m ρ c) (Proc.devRef .tc main_v26) = _
  after_results_simp <;> rfl

/-! ## After the first region (the projection of the features) -/

theorem w2_v3 : W2 m ρ c (Proc.devRef .tc main_v3) = W1 m ρ c (Proc.devRef .tc main_v3) :=
  W2_of_ne m ρ c main_v3 (by decide)
theorem w2_v6 : W2 m ρ c (Proc.devRef .tc main_v6) = W1 m ρ c (Proc.devRef .tc main_v6) :=
  W2_of_ne m ρ c main_v6 (by decide)
theorem w2_v26 : W2 m ρ c (Proc.devRef .tc main_v26) = W1 m ρ c (Proc.devRef .tc main_v26) :=
  W2_of_ne m ρ c main_v26 (by decide)
theorem w2_arg2 : W2 m ρ c (Proc.devRef .tc main_arg2) = W1 m ρ c (Proc.devRef .tc main_arg2) :=
  W2_of_ne m ρ c main_arg2 (by decide)
theorem w2_arg4 : W2 m ρ c (Proc.devRef .tc main_arg4) = W1 m ρ c (Proc.devRef .tc main_arg4) :=
  W2_of_ne m ρ c main_arg4 (by decide)
theorem w2_arg5 : W2 m ρ c (Proc.devRef .tc main_arg5) = W1 m ρ c (Proc.devRef .tc main_arg5) :=
  W2_of_ne m ρ c main_arg5 (by decide)
theorem w2_arg6 : W2 m ρ c (Proc.devRef .tc main_arg6) = W1 m ρ c (Proc.devRef .tc main_arg6) :=
  W2_of_ne m ρ c main_arg6 (by decide)
theorem w2_arg7 : W2 m ρ c (Proc.devRef .tc main_arg7) = W1 m ρ c (Proc.devRef .tc main_arg7) :=
  W2_of_ne m ρ c main_arg7 (by decide)
theorem w2_arg8 : W2 m ρ c (Proc.devRef .tc main_arg8) = W1 m ρ c (Proc.devRef .tc main_arg8) :=
  W2_of_ne m ρ c main_arg8 (by decide)
theorem w2_arg9 : W2 m ρ c (Proc.devRef .tc main_arg9) = W1 m ρ c (Proc.devRef .tc main_arg9) :=
  W2_of_ne m ρ c main_arg9 (by decide)
theorem w2_arg10 : W2 m ρ c (Proc.devRef .tc main_arg10) = W1 m ρ c (Proc.devRef .tc main_arg10) :=
  W2_of_ne m ρ c main_arg10 (by decide)
theorem w2_v27 : W2 m ρ c (Proc.devRef .tc main_v27) = Cert.ReferenceIdeal.Read.val_main_v27 (F := Ideal) (m ((c : Thread nD τ).loc main_arg0)) (m ((c : Thread nD τ).loc main_arg3)) := by
  refine (W2_arr m ρ c 2).trans ((Project.arr (V1 m ρ) c).trans ?_)
  show project (W1 m ρ c (Proc.devRef .tc main_arg0)) (W1 m ρ c (Proc.devRef .tc main_arg3)) = _
  rw [w1_arg0, w1_arg3]

/-! ## After the second host stretch (the first layer's aggregation) -/

theorem w3_v3 : W3 m ρ c (Proc.devRef .tc main_v3) = W2 m ρ c (Proc.devRef .tc main_v3) := by
  show after hostOps1 (W2 m ρ c) (Proc.devRef .tc main_v3) = _
  after_results_simp <;> rfl
theorem w3_v6 : W3 m ρ c (Proc.devRef .tc main_v6) = W2 m ρ c (Proc.devRef .tc main_v6) := by
  show after hostOps1 (W2 m ρ c) (Proc.devRef .tc main_v6) = _
  after_results_simp <;> rfl
theorem w3_v26 : W3 m ρ c (Proc.devRef .tc main_v26) = W2 m ρ c (Proc.devRef .tc main_v26) := by
  show after hostOps1 (W2 m ρ c) (Proc.devRef .tc main_v26) = _
  after_results_simp <;> rfl
theorem w3_arg2 : W3 m ρ c (Proc.devRef .tc main_arg2) = W2 m ρ c (Proc.devRef .tc main_arg2) := by
  show after hostOps1 (W2 m ρ c) (Proc.devRef .tc main_arg2) = _
  after_results_simp <;> rfl
theorem w3_arg5 : W3 m ρ c (Proc.devRef .tc main_arg5) = W2 m ρ c (Proc.devRef .tc main_arg5) := by
  show after hostOps1 (W2 m ρ c) (Proc.devRef .tc main_arg5) = _
  after_results_simp <;> rfl
theorem w3_arg6 : W3 m ρ c (Proc.devRef .tc main_arg6) = W2 m ρ c (Proc.devRef .tc main_arg6) := by
  show after hostOps1 (W2 m ρ c) (Proc.devRef .tc main_arg6) = _
  after_results_simp <;> rfl
theorem w3_arg7 : W3 m ρ c (Proc.devRef .tc main_arg7) = W2 m ρ c (Proc.devRef .tc main_arg7) := by
  show after hostOps1 (W2 m ρ c) (Proc.devRef .tc main_arg7) = _
  after_results_simp <;> rfl
theorem w3_arg8 : W3 m ρ c (Proc.devRef .tc main_arg8) = W2 m ρ c (Proc.devRef .tc main_arg8) := by
  show after hostOps1 (W2 m ρ c) (Proc.devRef .tc main_arg8) = _
  after_results_simp <;> rfl
theorem w3_arg9 : W3 m ρ c (Proc.devRef .tc main_arg9) = W2 m ρ c (Proc.devRef .tc main_arg9) := by
  show after hostOps1 (W2 m ρ c) (Proc.devRef .tc main_arg9) = _
  after_results_simp <;> rfl
theorem w3_arg10 : W3 m ρ c (Proc.devRef .tc main_arg10) = W2 m ρ c (Proc.devRef .tc main_arg10) := by
  show after hostOps1 (W2 m ρ c) (Proc.devRef .tc main_arg10) = _
  after_results_simp <;> rfl
theorem w3_v40 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg3)) := by
  show after hostOps1 (W2 m ρ c) (Proc.devRef .tc main_v40) = _
  after_results_simp
  rw [w2_v27, w2_v3, w2_v6, w2_v26, w1_v3, w1_v6, w1_v26]
  rfl
theorem w3_v41 : W3 m ρ c (Proc.devRef .tc main_v41) = Cert.ReferenceIdeal.Read.val_main_v41 (F := Ideal) (m ((c : Thread nD τ).loc main_arg4)) := by
  show after hostOps1 (W2 m ρ c) (Proc.devRef .tc main_v41) = _
  after_results_simp
  rw [w2_arg4, w1_arg4]
  exact rowCast_eq _ _ _

/-! ## After the second region (bias, rectifier, second projection) -/

theorem w4_v3 : W4 m ρ c (Proc.devRef .tc main_v3) = W3 m ρ c (Proc.devRef .tc main_v3) :=
  W4_of_ne m ρ c main_v3 (by decide)
theorem w4_v6 : W4 m ρ c (Proc.devRef .tc main_v6) = W3 m ρ c (Proc.devRef .tc main_v6) :=
  W4_of_ne m ρ c main_v6 (by decide)
theorem w4_v26 : W4 m ρ c (Proc.devRef .tc main_v26) = W3 m ρ c (Proc.devRef .tc main_v26) :=
  W4_of_ne m ρ c main_v26 (by decide)
theorem w4_arg2 : W4 m ρ c (Proc.devRef .tc main_arg2) = W3 m ρ c (Proc.devRef .tc main_arg2) :=
  W4_of_ne m ρ c main_arg2 (by decide)
theorem w4_arg6 : W4 m ρ c (Proc.devRef .tc main_arg6) = W3 m ρ c (Proc.devRef .tc main_arg6) :=
  W4_of_ne m ρ c main_arg6 (by decide)
theorem w4_arg7 : W4 m ρ c (Proc.devRef .tc main_arg7) = W3 m ρ c (Proc.devRef .tc main_arg7) :=
  W4_of_ne m ρ c main_arg7 (by decide)
theorem w4_arg8 : W4 m ρ c (Proc.devRef .tc main_arg8) = W3 m ρ c (Proc.devRef .tc main_arg8) :=
  W4_of_ne m ρ c main_arg8 (by decide)
theorem w4_arg9 : W4 m ρ c (Proc.devRef .tc main_arg9) = W3 m ρ c (Proc.devRef .tc main_arg9) :=
  W4_of_ne m ρ c main_arg9 (by decide)
theorem w4_arg10 : W4 m ρ c (Proc.devRef .tc main_arg10) = W3 m ρ c (Proc.devRef .tc main_arg10) :=
  W4_of_ne m ρ c main_arg10 (by decide)
theorem w4_v42 : W4 m ρ c (Proc.devRef .tc main_v42) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 3).trans ((Layer2.arr (V3 m ρ) c Cert.ReferenceIdeal.Facts₀.bcast_S1x128_S50000x128_0_1 Cert.ReferenceIdeal.Facts₀.bcast_S_S50000x128).trans ?_)
  show Layer2.layer2 (W3 m ρ c (Proc.devRef .tc main_v40)) (W3 m ρ c (Proc.devRef .tc main_v41)) (W3 m ρ c (Proc.devRef .tc main_arg5)) _ _ = _
  rw [w3_v40, w3_v41, w3_arg5, w2_arg5, w1_arg5]
  rfl

/-! ## After the third host stretch (the second layer's aggregation) -/

theorem w5_arg2 : W5 m ρ c (Proc.devRef .tc main_arg2) = W4 m ρ c (Proc.devRef .tc main_arg2) := by
  show after hostOps2 (W4 m ρ c) (Proc.devRef .tc main_arg2) = _
  after_results_simp <;> rfl
theorem w5_arg7 : W5 m ρ c (Proc.devRef .tc main_arg7) = W4 m ρ c (Proc.devRef .tc main_arg7) := by
  show after hostOps2 (W4 m ρ c) (Proc.devRef .tc main_arg7) = _
  after_results_simp <;> rfl
theorem w5_arg8 : W5 m ρ c (Proc.devRef .tc main_arg8) = W4 m ρ c (Proc.devRef .tc main_arg8) := by
  show after hostOps2 (W4 m ρ c) (Proc.devRef .tc main_arg8) = _
  after_results_simp <;> rfl
theorem w5_arg9 : W5 m ρ c (Proc.devRef .tc main_arg9) = W4 m ρ c (Proc.devRef .tc main_arg9) := by
  show after hostOps2 (W4 m ρ c) (Proc.devRef .tc main_arg9) = _
  after_results_simp <;> rfl
theorem w5_arg10 : W5 m ρ c (Proc.devRef .tc main_arg10) = W4 m ρ c (Proc.devRef .tc main_arg10) := by
  show after hostOps2 (W4 m ρ c) (Proc.devRef .tc main_arg10) = _
  after_results_simp <;> rfl
theorem w5_v55 : W5 m ρ c (Proc.devRef .tc main_v55) = Cert.ReferenceIdeal.Read.val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show after hostOps2 (W4 m ρ c) (Proc.devRef .tc main_v55) = _
  after_results_simp
  rw [w4_v42, w4_v3, w4_v6, w4_v26, w3_v3, w3_v6, w3_v26, w2_v3, w2_v6, w2_v26, w1_v3, w1_v6, w1_v26]
  rfl
theorem w5_v56 : W5 m ρ c (Proc.devRef .tc main_v56) = Cert.ReferenceIdeal.Read.val_main_v59 (F := Ideal) (m ((c : Thread nD τ).loc main_arg6)) := by
  show after hostOps2 (W4 m ρ c) (Proc.devRef .tc main_v56) = _
  after_results_simp
  rw [w4_arg6, w3_arg6, w2_arg6, w1_arg6]
  exact rowCast_eq _ _ _

/-! ## After the third region (bias and rectifier) -/

theorem w6_arg2 : W6 m ρ c (Proc.devRef .tc main_arg2) = W5 m ρ c (Proc.devRef .tc main_arg2) :=
  W6_of_ne m ρ c main_arg2 (by decide)
theorem w6_arg7 : W6 m ρ c (Proc.devRef .tc main_arg7) = W5 m ρ c (Proc.devRef .tc main_arg7) :=
  W6_of_ne m ρ c main_arg7 (by decide)
theorem w6_arg8 : W6 m ρ c (Proc.devRef .tc main_arg8) = W5 m ρ c (Proc.devRef .tc main_arg8) :=
  W6_of_ne m ρ c main_arg8 (by decide)
theorem w6_arg9 : W6 m ρ c (Proc.devRef .tc main_arg9) = W5 m ρ c (Proc.devRef .tc main_arg9) :=
  W6_of_ne m ρ c main_arg9 (by decide)
theorem w6_arg10 : W6 m ρ c (Proc.devRef .tc main_arg10) = W5 m ρ c (Proc.devRef .tc main_arg10) :=
  W6_of_ne m ρ c main_arg10 (by decide)
theorem w6_v57 : W6 m ρ c (Proc.devRef .tc main_v57) = Cert.ReferenceIdeal.Read.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 2).trans ((BiasRelu.arr (V5 m ρ) c Cert.ReferenceIdeal.Facts₀.bcast_S1x128_S50000x128_0_1 Cert.ReferenceIdeal.Facts₀.bcast_S_S50000x128).trans ?_)
  show biasRelu (W5 m ρ c (Proc.devRef .tc main_v55)) (W5 m ρ c (Proc.devRef .tc main_v56)) _ _ = _
  rw [w5_v55, w5_v56]
  rfl

/-! ## After the fourth host stretch (the mean over each graph's nodes) -/

theorem w7_v69 : W7 m ρ c (Proc.devRef .tc main_v69) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show after hostOps3 (W6 m ρ c) (Proc.devRef .tc main_v69) = _
  after_results_simp
  rw [w6_v57, w6_arg2, w5_arg2, w4_arg2, w3_arg2, w2_arg2, w1_arg2]
  rfl
theorem w7_v70 : W7 m ρ c (Proc.devRef .tc main_v70) = Cert.ReferenceIdeal.Read.val_main_v76 (F := Ideal) (m ((c : Thread nD τ).loc main_arg8)) := by
  show after hostOps3 (W6 m ρ c) (Proc.devRef .tc main_v70) = _
  after_results_simp
  rw [w6_arg8, w5_arg8, w4_arg8, w3_arg8, w2_arg8, w1_arg8]
  exact rowCast_eq _ _ _
theorem w7_v71 : W7 m ρ c (Proc.devRef .tc main_v71) = Cert.ReferenceIdeal.Read.val_main_v81 (F := Ideal) (m ((c : Thread nD τ).loc main_arg10)) := by
  show after hostOps3 (W6 m ρ c) (Proc.devRef .tc main_v71) = _
  after_results_simp
  rw [w6_arg10, w5_arg10, w4_arg10, w3_arg10, w2_arg10, w1_arg10]
  exact rowCast_eq _ _ _
theorem w7_arg7 : W7 m ρ c (Proc.devRef .tc main_arg7) = (m ((c : Thread nD τ).loc main_arg7)) := by
  show after hostOps3 (W6 m ρ c) (Proc.devRef .tc main_arg7) = _
  after_results_simp
  rw [w6_arg7, w5_arg7, w4_arg7, w3_arg7, w2_arg7, w1_arg7]
theorem w7_arg9 : W7 m ρ c (Proc.devRef .tc main_arg9) = (m ((c : Thread nD τ).loc main_arg9)) := by
  show after hostOps3 (W6 m ρ c) (Proc.devRef .tc main_arg9) = _
  after_results_simp
  rw [w6_arg9, w5_arg9, w4_arg9, w3_arg9, w2_arg9, w1_arg9]

/-! ## After the fourth region: the result -/

/-- The result array after the run is the reference's result function of the argument arrays. -/
theorem w8_v72 : W8 m ρ c (Proc.devRef .tc main_v72) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 5).trans ((Head.arr (V7 m ρ) c Cert.ReferenceIdeal.Facts₀.bcast_S1x128_S512x128_0_1 Cert.ReferenceIdeal.Facts₀.bcast_S_S512x128 Cert.ReferenceIdeal.Facts₀.bcast_S1x2_S512x2_0_1).trans ?_)
  show Head.mlp (W7 m ρ c (Proc.devRef .tc main_v69)) (W7 m ρ c (Proc.devRef .tc main_arg7)) (W7 m ρ c (Proc.devRef .tc main_v70)) (W7 m ρ c (Proc.devRef .tc main_arg9)) (W7 m ρ c (Proc.devRef .tc main_v71)) _ _ _ = _
  rw [w7_v69, w7_arg7, w7_v70, w7_arg9, w7_v71]
  rfl

end Cert.KernelIdeal.Chain

end
-- ==== Proof.lean ====
/-
  Two graph-convolution layers, a mean over each graph's nodes and a two-layer head: the kernel against its reference.

  Both programs add a self loop to every node, count each node's in-degree by a scatter-add of ones, take the inverse
  square roots, and weight edge (s, d) by their product at s and d.  A layer projects the node features by a dense
  product, gathers the projected row of each edge's source, scales it by the edge's weight, scatter-adds it to the
  edge's destination, adds a bias row and cuts at zero.  The rectified features of the second layer are summed per
  graph, divided by the larger of the graph's node count and one, and passed through two dense layers with a
  rectifier between them.

  The kernel runs the dense steps as four kernel regions — the first projection; bias, rectifier and the second
  projection; bias and rectifier; the two-layer head — the first three over ten blocks of 5000 rows, with matrix
  products in a narrower float format accumulated into zero.  Everything else (the edge lists, the degrees, every
  gather and scatter-add, the pooling) is the same host operation in both programs.  On the extended reals a change
  of float format is the identity, a product accumulated into zero is the host's product, a row block of a row-wise
  function of an array is that function of the row block, and ten blocks of 5000 rows tile 50000; so each region's
  output array is the array the reference computes for the corresponding value, stage after stage, and the results
  agree.  No step uses more of real arithmetic than 0 + x = x, so the finiteness of the inputs is never opened.

  The kernel's run is read in Proof/KRun.lean (the result array at the last boundary's contents), each region in
  Proof/Reg0.lean … Reg3.lean over Proof/Block.lean, and the boundaries in Proof/Chain.lean; the reference's run and
  its stage functions are the generated ones.
-/
import proofs.«171946_j52664888984064_1_alg».proof.Defs
import proofs.«171946_j52664888984064_1_alg».proof.Proof.Gen.Kernel
import proofs.«171946_j52664888984064_1_alg».proof.Proof.Gen.Kernel.Skeleton
import proofs.«171946_j52664888984064_1_alg».proof.Proof.Gen.Kernel.Launch
import proofs.«171946_j52664888984064_1_alg».proof.Proof.Gen.Kernel.Points
import proofs.«171946_j52664888984064_1_alg».proof.Proof.Gen.Kernel.Frame
import proofs.«171946_j52664888984064_1_alg».proof.Proof.Gen.KernelIdeal
import proofs.«171946_j52664888984064_1_alg».proof.Proof.Gen.KernelIdeal.Skeleton
import proofs.«171946_j52664888984064_1_alg».proof.Proof.Gen.KernelIdeal.Launch
import proofs.«171946_j52664888984064_1_alg».proof.Proof.Gen.KernelIdeal.Points
import proofs.«171946_j52664888984064_1_alg».proof.Proof.Gen.KernelIdeal.Frame
import proofs.«171946_j52664888984064_1_alg».proof.Proof.Gen.ReferenceIdeal
import proofs.«171946_j52664888984064_1_alg».proof.Proof.Gen.ReferenceIdeal.Run
import proofs.«171946_j52664888984064_1_alg».proof.Proof.Gen.ReferenceIdeal.Read
import proofs.«171946_j52664888984064_1_alg».proof.Proof.Gen.Pre_finite_inputs
import proofs.«171946_j52664888984064_1_alg».proof.Proof.KRun
import proofs.«171946_j52664888984064_1_alg».proof.Proof.Chain
import Idealize.ShloMosaic.Adequacy
import Idealize.ShloMosaic.Init

noncomputable section

namespace Cert.Proof

open Idealize.ShloMosaic Idealize.ShloMosaic.TcCoe Idealize.SL.Sem

/-- The idealized kernel's run with its result named: the result array ends at the reference's result function of the
    argument arrays, and the argument arrays end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v72) = Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono (fun r h c => ⟨(h c).1.trans (Cert.KernelIdeal.Chain.w8_v72 m ρ c), (h c).2⟩)
    (Cert.KernelIdeal.KRun.run m ρ)

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at one function of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8, a9, a10⟩ := hagree c
  rw [Cert.ReferenceIdeal.Read.val_main_v83_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
